-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 54
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .f32⟩
  | .hbm, ⟨28, _⟩ => ⟨S100000x64, .f32⟩
  | .hbm, ⟨29, _⟩ => ⟨S1000000x1, .i32⟩
  | .hbm, ⟨30, _⟩ => ⟨S100000x64, .f32⟩
  | .hbm, ⟨31, _⟩ => ⟨S64x64, .f32⟩
  | .hbm, ⟨32, _⟩ => ⟨S64x64, .f32⟩
  | .hbm, ⟨33, _⟩ => ⟨S100000x1, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S64x64, .f32⟩
  | .hbm, ⟨50, _⟩ => ⟨S64x64, .f32⟩
  | .hbm, ⟨51, _⟩ => ⟨S100000x1, .f32⟩
  | .hbm, ⟨52, _⟩ => ⟨S1x64, .f32⟩
  | .hbm, ⟨53, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  transposes_S64x64_S64x64_1_0 : S64x64.Transposes [1, 0] S64x64
  shapeCasts_S100000_S100000x1 : S100000.ShapeCasts S100000x1
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v17) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  One layer of a graph network that averages each node's incoming messages, on the extended reals.

  For node p and output feature q the layer's entry is

      ( Σ_k  (msg p k / max (deg p) 1) · wl k q )  +  b q  +  Σ_k  x p k · wr k q ,

  where msg is the sum of the features of p's in-neighbours, deg their number, x the node's own features, wl and wr the
  two weight matrices already transposed (feature k in, feature q out) and b the bias; a hidden layer then takes the
  maximum with 0.  The order of the three terms is the order both programs add them in, so no law of the extended reals
  is needed to compare them: the two programs compute this expression term for term.  The words for 1 and 0 are kept as
  words; nothing here evaluates them.
-/
import Idealize.ShloMosaic.Lib.ValueIdx
import Idealize.ShloMosaic.PureOps.Ideal

noncomputable section

open scoped BigOperators

namespace Cert.Sage

open Idealize.ShloMosaic Idealize.ShloMosaic.ValueIdx

/-- The single-precision word of 1, read on the extended reals. -/
abbrev one : EReal := Ideal.ofBits .f32 0x3F800000#32
/-- The single-precision word of 0, read on the extended reals. -/
abbrev zero : EReal := Ideal.ofBits .f32 0x00000000#32

/-- One entry before the activation, from the node's row of message sums, its row of features, the two weight columns of
    the output feature, the node's in-degree and the output feature's bias. -/
def entry (msgRow xRow wlCol wrCol : Fin 64 → EReal) (d b : EReal) : EReal :=
  (∑ k : Fin 64, Ideal.div (msgRow k) (max d one) * wlCol k) + b + ∑ k : Fin 64, xRow k * wrCol k

/-- The activation: a hidden layer clips at 0 from below, the last layer does not. -/
def act (hidden : Bool) (v : EReal) : EReal := if hidden then max v zero else v

theorem act_hidden (v : EReal) : act true v = max v zero := if_pos rfl
theorem act_last (v : EReal) : act false v = v := if_neg (by decide)

/-- Node features: 100000 nodes, 64 features each. -/
abbrev Nodes : Shape := ⟨2, ![100000, 64]⟩
/-- A weight matrix, 64 by 64. -/
abbrev Weights : Shape := ⟨2, ![64, 64]⟩

/-- The layer's entry (p, q) from whole arrays; the in-degrees and the bias enter as functions of the node and of the
    feature, so that a column [100000, 1] and a vector [100000] (a row [1, 64] and a vector [64]) are read the same way. -/
def layerAt (hidden : Bool) (msg x : Nodes.Idx → EReal) (wl wr : Weights.Idx → EReal) (d : Fin 100000 → EReal)
    (b : Fin 64 → EReal) (p : Fin 100000) (q : Fin 64) : EReal :=
  act hidden (entry (fun k => msg (ix2 p k)) (fun k => x (ix2 p k)) (fun k => wl (ix2 k q)) (fun k => wr (ix2 k q)) (d p) (b q))

/-- The layer as one array of node features. -/
def layer (hidden : Bool) (msg x : Nodes.Idx → EReal) (wl wr : Weights.Idx → EReal) (d : Fin 100000 → EReal)
    (b : Fin 64 → EReal) : Nodes.Idx → EReal :=
  fun i => layerAt hidden msg x wl wr d b (i 0) (i 1)

theorem layer_apply (hidden : Bool) (msg x : Nodes.Idx → EReal) (wl wr : Weights.Idx → EReal) (d : Fin 100000 → EReal)
    (b : Fin 64 → EReal) (p : Fin 100000) (q : Fin 64) :
    layer hidden msg x wl wr d b (ix2 p q) = layerAt hidden msg x wl wr d b p q := rfl

/-- The whole network: a hidden layer, then the last layer on the hidden features; `agg` sums, for every node, the rows
    of its in-neighbours (the same gather and scatter-add in both layers), `d` is the in-degree. -/
def network (agg : (Nodes.Idx → EReal) → (Nodes.Idx → EReal)) (d : Fin 100000 → EReal) (x : Nodes.Idx → EReal)
    (w1l w1r : Weights.Idx → EReal) (b1 : Fin 64 → EReal) (w2l w2r : Weights.Idx → EReal) (b2 : Fin 64 → EReal) :
    Nodes.Idx → EReal :=
  layer false (agg (layer true (agg x) x w1l w1r d b1)) (layer true (agg x) x w1l w1r d b1) w2l w2r d b2

end Cert.Sage

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.KPayload.lean ====
/-
  What each kernel body stores, read at one entry of its block.

  A body works on a block of 10000 nodes: it loads the block's rows of message sums, its column of in-degrees, its rows
  of features, the two whole weight matrices and the bias row, and stores one [10000, 64] value.  At entry (r, q) that
  value is the layer's entry of the specification for row r of the loaded blocks: the in-degree column is clipped at 1
  from below and repeated along the 64 features, the message sums are divided by it, the two products contract the
  feature axis (the change of format on the way into a product is the identity on the extended reals, and a product
  onto the zero array is the plain sum), the bias row is repeated along the 10000 rows, and the first body clips the sum
  at 0 where the second does not.
-/
import proofs.«136123_j89936615178305_1_alg».proof.Proof.Gen.KernelIdeal.Skeleton
import proofs.«136123_j89936615178305_1_alg».proof.Proof.Spec
import proofs.«136123_j89936615178305_1_alg».proof.Proof.LibPlainMatmul
import proofs.«136123_j89936615178305_1_alg».proof.Proof.LibKeepdims
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Sage

/-- The message sums of a block divided by the clipped in-degree column, at (r, k). -/
theorem mean_apply (v0 : FVec Ideal S10000x1 .f32) (v2 : FVec Ideal S10000x64 .f32) (r : Fin 10000) (k : Fin 64) :
    divf v2 (broadcastTo S10000x64 (maximumf v0 (broadcast S10000x1 (FloatOps.ofBits (F := Ideal) .f32 0x3F800000#32)))
        broadcasts_S10000x1_S10000x64) (ix2 r k)
      = Ideal.div (v2 (ix2 r k)) (max (v0 (ix2 r (0 : Fin 1))) one) := by
  rw [divf_apply, Cert.Keepdims.column_repeat_apply, maximumf_apply]
  rfl

/-- The bias row of a block repeated along the rows, at (r, q). -/
theorem bias_apply (v19 : Vec Ideal S1x64 .f32) (r : Fin 10000) (q : Fin 64) :
    broadcastTo S10000x64 (shapeCast S1x64 v19 shapeCasts_S1x64_S1x64 : FVec Ideal S1x64 .f32) broadcasts_S1x64_S10000x64 (ix2 r q)
      = v19 (ix2 (0 : Fin 1) q) := by
  rw [broadcastTo_1b_ab_apply, shapeCast_self]

/-- A block's product onto the zero array, at (r, q): the sum over the 64 features. -/
theorem product_apply {φ₁ φ₂ : FTy} (A : FVec Ideal S10000x64 φ₁) (B : FVec Ideal S64x64 φ₂) (r : Fin 10000) (q : Fin 64) :
    matmul dot_S10000x64_S64x64_S10000x64_1_0_0_1_n_n none A B (constant S10000x64 .f32 0x00000000#32) (ix2 r q)
      = ∑ k : Fin 64, A (ix2 r k) * B (ix2 k q) :=
  Cert.PlainMatmul.zero_acc_apply dot_S10000x64_S64x64_S10000x64_1_0_0_1_n_n_wf none A B r q

/-- The first body's stored value at (r, q): the hidden layer's entry for row r of the loaded blocks. -/
theorem hidden_apply (v0 : Vec Ideal S10000x1 .f32) (v2 v9 : Vec Ideal S10000x64 .f32) (v11 v14 : Vec Ideal S64x64 .f32)
    (v19 : Vec Ideal S1x64 .f32) (r : Fin 10000) (q : Fin 64) :
    k0_pay1 (F := Ideal) v0 v2 v9 v11 v14 v19 (ix2 r q)
      = act true (entry (fun k => v2 (ix2 r k)) (fun k => v9 (ix2 r k)) (fun k => v11 (ix2 k q)) (fun k => v14 (ix2 k q))
          (v0 (ix2 r (0 : Fin 1))) (v19 (ix2 (0 : Fin 1) q))) := by
  unfold k0_pay1
  rw [maximumf_apply, addf_apply, addf_apply, product_apply, product_apply, bias_apply, broadcast_apply, act_hidden]
  unfold entry
  simp only [truncf_apply, shapeCast_self, mean_apply]
  rfl

/-- The second body's stored value at (r, q): the last layer's entry for row r of the loaded blocks. -/
theorem last_apply (v0 : Vec Ideal S10000x1 .f32) (v2 v9 : Vec Ideal S10000x64 .f32) (v12 v15 : Vec Ideal S64x64 .f32)
    (v20 : Vec Ideal S1x64 .f32) (r : Fin 10000) (q : Fin 64) :
    k1_pay1 (F := Ideal) v0 v2 v9 v12 v15 v20 (ix2 r q)
      = act false (entry (fun k => v2 (ix2 r k)) (fun k => v9 (ix2 r k)) (fun k => v12 (ix2 k q)) (fun k => v15 (ix2 k q))
          (v0 (ix2 r (0 : Fin 1))) (v20 (ix2 (0 : Fin 1) q))) := by
  unfold k1_pay1
  rw [addf_apply, addf_apply, product_apply, product_apply, bias_apply, act_last]
  unfold entry
  simp only [truncf_apply, shapeCast_self, mean_apply]

/-- The same at any index of the block, through its two coordinates. -/
theorem hidden_at (v0 : Vec Ideal S10000x1 .f32) (v2 v9 : Vec Ideal S10000x64 .f32) (v11 v14 : Vec Ideal S64x64 .f32)
    (v19 : Vec Ideal S1x64 .f32) (y : S10000x64.Idx) :
    k0_pay1 (F := Ideal) v0 v2 v9 v11 v14 v19 y
      = act true (entry (fun k => v2 (ix2 (y 0) k)) (fun k => v9 (ix2 (y 0) k)) (fun k => v11 (ix2 k (y 1))) (fun k => v14 (ix2 k (y 1)))
          (v0 (ix2 (y 0) (0 : Fin 1))) (v19 (ix2 (0 : Fin 1) (y 1)))) :=
  (congrArg (k0_pay1 (F := Ideal) v0 v2 v9 v11 v14 v19) (eq_ix2 y)).trans (hidden_apply v0 v2 v9 v11 v14 v19 (y 0) (y 1))

theorem last_at (v0 : Vec Ideal S10000x1 .f32) (v2 v9 : Vec Ideal S10000x64 .f32) (v12 v15 : Vec Ideal S64x64 .f32)
    (v20 : Vec Ideal S1x64 .f32) (y : S10000x64.Idx) :
    k1_pay1 (F := Ideal) v0 v2 v9 v12 v15 v20 y
      = act false (entry (fun k => v2 (ix2 (y 0) k)) (fun k => v9 (ix2 (y 0) k)) (fun k => v12 (ix2 k (y 1))) (fun k => v15 (ix2 k (y 1)))
          (v0 (ix2 (y 0) (0 : Fin 1))) (v20 (ix2 (0 : Fin 1) (y 1)))) :=
  (congrArg (k1_pay1 (F := Ideal) v0 v2 v9 v12 v15 v20) (eq_ix2 y)).trans (last_apply v0 v2 v9 v12 v15 v20 (y 0) (y 1))

end Cert.KernelIdeal.Payload

end
-- ==== Proof.KRegion.lean ====
/-
  From blocks to arrays: what each launch leaves in its output array.

  A launch runs its body at ten points; point t works on nodes t·10000 … t·10000 + 9999.  The blocks of the message
  sums, of the in-degree column and of the features are the rows of those nodes; the two weight matrices and the bias
  row are fetched whole.  So the value the body stores at entry (r, q) of its block is the layer of the specification
  at node t·10000 + r and feature q of the WHOLE arrays, the ten output blocks tile the output array (node p lies in the
  block of point p / 10000), and after the launch the output array is the layer applied to the arrays the launch found.
  Both launches have this shape; the first clips at 0, the second does not.
-/
import proofs.«136123_j89936615178305_1_alg».proof.Proof.Gen.KernelIdeal.Frame
import proofs.«136123_j89936615178305_1_alg».proof.Proof.KPayload

set_option maxRecDepth 16384

noncomputable section

open scoped BigOperators

namespace Cert.KernelIdeal.KRegion

open Cert.KernelIdeal Cert.KernelIdeal.Gen Idealize.ShloMosaic Idealize.ShloMosaic.TcCoe Idealize.ShloMosaic.ValueIdx Cert.Sage
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The printed index maps over the grid: the three row-tiled inputs and the output sit at block row `t`, the two weight
    matrices and the bias row at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer on the arrays as launch 0 finds them. -/
def hiddenOf (c : Dev nD) : S100000x64.Idx → EReal :=
  layer true (V c main_v17) (V c main_arg0) (V c main_v18) (V c main_v19)
    (fun p => V c main_v20 (ix2 p (0 : Fin 1))) (fun q => V c main_v21 (ix2 (0 : Fin 1) q))

/-- Row r of block t of the message sums is row t·10000 + r of the array. -/
theorem read0_0 (c : Dev nD) (t : Fin cfg0.N) (y : S10000x64.Idx) (i : S100000x64.Idx)
    (h0 : (i 0).val = t.val * 10000 + (y 0).val) (k : Fin 64) :
    iblk0 V c 0 t (ix2 (y 0) k) = V c main_v17 (ix2 (i 0) k) := by
  show V c main_v17 (((cfg0.win 0).blk t).view.emb (ix2 (y 0) k)) = V c main_v17 (ix2 (i 0) k)
  refine congrArg (V c main_v17) (funext fun a => Fin.ext ?_)
  obtain ⟨e0, e1, -⟩ := idx0 t
  match a with
  | ⟨0, _⟩ => show win0_0.index t (0 : Fin 2) * 10000 + 1 * (y 0).val = (i 0).val; omega
  | ⟨1, _⟩ => show win0_0.index t (1 : Fin 2) * 64 + 1 * k.val = k.val; omega

/-- The same for the in-degree column. -/
theorem read0_1 (c : Dev nD) (t : Fin cfg0.N) (y : S10000x64.Idx) (i : S100000x64.Idx)
    (h0 : (i 0).val = t.val * 10000 + (y 0).val) :
    iblk0 V c 1 t (ix2 (y 0) (0 : Fin 1)) = V c main_v20 (ix2 (i 0) (0 : Fin 1)) := by
  show V c main_v20 (((cfg0.win 1).blk t).view.emb (ix2 (y 0) (0 : Fin 1))) = V c main_v20 (ix2 (i 0) (0 : Fin 1))
  refine congrArg (V c main_v20) (funext fun a => Fin.ext ?_)
  obtain ⟨-, -, e0, e1, -⟩ := idx0 t
  match a with
  | ⟨0, _⟩ => show win0_1.index t (0 : Fin 2) * 10000 + 1 * (y 0).val = (i 0).val; omega
  | ⟨1, _⟩ => show win0_1.index t (1 : Fin 2) * 1 + 1 * 0 = 0; omega

/-- The same for the node features. -/
theorem read0_2 (c : Dev nD) (t : Fin cfg0.N) (y : S10000x64.Idx) (i : S100000x64.Idx)
    (h0 : (i 0).val = t.val * 10000 + (y 0).val) (k : Fin 64) :
    iblk0 V c 2 t (ix2 (y 0) k) = V c main_arg0 (ix2 (i 0) k) := by
  show V c main_arg0 (((cfg0.win 2).blk t).view.emb (ix2 (y 0) k)) = V c main_arg0 (ix2 (i 0) k)
  refine congrArg (V c main_arg0) (funext fun a => Fin.ext ?_)
  obtain ⟨-, -, -, -, e0, e1, -⟩ := idx0 t
  match a with
  | ⟨0, _⟩ => show win0_2.index t (0 : Fin 2) * 10000 + 1 * (y 0).val = (i 0).val; omega
  | ⟨1, _⟩ => show win0_2.index t (1 : Fin 2) * 64 + 1 * k.val = k.val; omega

/-- A weight matrix is its one block. -/
theorem read0_3 (c : Dev nD) (t : Fin cfg0.N) (y : S10000x64.Idx) (i : S100000x64.Idx)
    (h1 : (i 1).val = (y 1).val) (k : Fin 64) :
    iblk0 V c 3 t (ix2 k (y 1)) = V c main_v18 (ix2 k (i 1)) := by
  show V c main_v18 (((cfg0.win 3).blk t).view.emb (ix2 k (y 1))) = V c main_v18 (ix2 k (i 1))
  refine congrArg (V c main_v18) (funext fun a => Fin.ext ?_)
  obtain ⟨-, -, -, -, -, -, e0, e1, -⟩ := idx0 t
  match a with
  | ⟨0, _⟩ => show win0_3.index t (0 : Fin 2) * 64 + 1 * k.val = k.val; omega
  | ⟨1, _⟩ => show win0_3.index t (1 : Fin 2) * 64 + 1 * (y 1).val = (i 1).val; omega

/-- The bias row is its one block. -/
theorem read0_4 (c : Dev nD) (t : Fin cfg0.N) (y : S10000x64.Idx) (i : S100000x64.Idx)
    (h1 : (i 1).val = (y 1).val) :
    iblk0 V c 4 t (ix2 (0 : Fin 1) (y 1)) = V c main_v21 (ix2 (0 : Fin 1) (i 1)) := by
  show V c main_v21 (((cfg0.win 4).blk t).view.emb (ix2 (0 : Fin 1) (y 1))) = V c main_v21 (ix2 (0 : Fin 1) (i 1))
  refine congrArg (V c main_v21) (funext fun a => Fin.ext ?_)
  obtain ⟨-, -, -, -, -, -, -, -, e0, e1, -⟩ := idx0 t
  match a with
  | ⟨0, _⟩ => show win0_4.index t (0 : Fin 2) * 1 + 1 * 0 = 0; omega
  | ⟨1, _⟩ => show win0_4.index t (1 : Fin 2) * 64 + 1 * (y 1).val = (i 1).val; omega

/-- The other weight matrix is its one block. -/
theorem read0_5 (c : Dev nD) (t : Fin cfg0.N) (y : S10000x64.Idx) (i : S100000x64.Idx)
    (h1 : (i 1).val = (y 1).val) (k : Fin 64) :
    iblk0 V c 5 t (ix2 k (y 1)) = V c main_v19 (ix2 k (i 1)) := by
  show V c main_v19 (((cfg0.win 5).blk t).view.emb (ix2 k (y 1))) = V c main_v19 (ix2 k (i 1))
  refine congrArg (V c main_v19) (funext fun a => Fin.ext ?_)
  obtain ⟨-, -, -, -, -, -, -, -, -, -, e0, e1, -⟩ := idx0 t
  match a with
  | ⟨0, _⟩ => show win0_5.index t (0 : Fin 2) * 64 + 1 * k.val = k.val; omega
  | ⟨1, _⟩ => show win0_5.index t (1 : Fin 2) * 64 + 1 * (y 1).val = (i 1).val; omega

/-- The layer's entry for row (y 0) and feature (y 1) of the blocks at point t is the layer on the whole arrays at the
    array index i that this block entry lands on. -/
theorem entry0 (c : Dev nD) (t : Fin cfg0.N) (y : S10000x64.Idx) (i : S100000x64.Idx)
    (h0 : (i 0).val = t.val * 10000 + (y 0).val) (h1 : (i 1).val = (y 1).val) :
    act true (entry (fun k => iblk0 V c 0 t (ix2 (y 0) k)) (fun k => iblk0 V c 2 t (ix2 (y 0) k))
        (fun k => iblk0 V c 3 t (ix2 k (y 1))) (fun k => iblk0 V c 5 t (ix2 k (y 1)))
        (iblk0 V c 1 t (ix2 (y 0) (0 : Fin 1))) (iblk0 V c 4 t (ix2 (0 : Fin 1) (y 1))))
      = hiddenOf V c i := by
  have e0 : (fun k => iblk0 V c 0 t (ix2 (y 0) k)) = fun k => V c main_v17 (ix2 (i 0) k) := funext (read0_0 V c t y i h0)
  have e2 : (fun k => iblk0 V c 2 t (ix2 (y 0) k)) = fun k => V c main_arg0 (ix2 (i 0) k) := funext (read0_2 V c t y i h0)
  have e3 : (fun k => iblk0 V c 3 t (ix2 k (y 1))) = fun k => V c main_v18 (ix2 k (i 1)) := funext (read0_3 V c t y i h1)
  have e5 : (fun k => iblk0 V c 5 t (ix2 k (y 1))) = fun k => V c main_v19 (ix2 k (i 1)) := funext (read0_5 V c t y i h1)
  rw [e0, e2, e3, e5, read0_1 V c t y i h0, read0_4 V c t y i h1]
  rfl

/-- What point t writes back is block t of the layer on the whole arrays. -/
theorem flushed0 (c : Dev nD) (t : Fin cfg0.N) :
    (dat0 V c).flushed 6 t = ((cfg0.win 6).blk t).view.read (Elt Ideal) (hiddenOf V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz, View.ld_unit_zero (S := S1x64) hz]
  funext j
  obtain ⟨-, -, -, -, -, -, -, -, -, -, -, -, e0, e1⟩ := idx0 t
  refine (Payload.hidden_at (iblk0 V c 1 t) (iblk0 V c 0 t) (iblk0 V c 2 t) (iblk0 V c 3 t) (iblk0 V c 5 t) (iblk0 V c 4 t)
    ((cfg0.win 6).xinj (grid0.coords t) j)).trans ?_
  refine entry0 V c t ((cfg0.win 6).xinj (grid0.coords t) j) (((cfg0.win 6).blk t).view.emb j) ?_ ?_
  · show win0_6.index t (0 : Fin 2) * 10000 + 1 * (j 0).val = t.val * 10000 + (j 0).val
    omega
  · show win0_6.index t (1 : Fin 2) * 64 + 1 * (j 1).val = (j 1).val
    omega

/-- An index of the output array is in point t's block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v22).slice (win0_6.rect t)).set ↔ _
  rw [View.set_slice_whole, Rect.mem_set_unit]
  exact Iff.rfl

/-- Every node's row is in the block of the point its row number divided by 10000 names. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  refine ⟨⟨(i 0).val / 10000, by omega⟩, flush0_6 _, ?_⟩
  rw [mem_blk0]
  obtain ⟨-, -, -, -, -, -, -, -, -, -, -, -, e0, e1⟩ := idx0 ⟨(i 0).val / 10000, by omega⟩
  intro a
  match a with
  | ⟨0, _⟩ =>
    show win0_6.index ⟨(i 0).val / 10000, _⟩ (0 : Fin 2) * 10000 ≤ (i 0).val ∧ (i 0).val < win0_6.index ⟨(i 0).val / 10000, _⟩ (0 : Fin 2) * 10000 + 10000
    rw [e0]; show (i 0).val / 10000 * 10000 ≤ (i 0).val ∧ (i 0).val < (i 0).val / 10000 * 10000 + 10000
    omega
  | ⟨1, _⟩ =>
    show win0_6.index ⟨(i 0).val / 10000, _⟩ (1 : Fin 2) * 64 ≤ (i 1).val ∧ (i 1).val < win0_6.index ⟨(i 0).val / 10000, _⟩ (1 : Fin 2) * 64 + 64
    rw [e1]; omega

/-- After launch 0 its output array holds the layer on the arrays the launch found. -/
theorem final0 (c : Dev nD) : (dat0 V c).arrAt 6 cfg0.N = hiddenOf V c :=
  (dat0 V c).arrAt_eq_of_cover 6 (hiddenOf V c) (fun t _ => flushed0 V c t) (cover0)

/-! ## Launch 1 -/

/-- The printed index maps over the grid: the three row-tiled inputs and the output sit at block row `t`, the two weight
    matrices and the bias row at their one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer on the arrays as launch 1 finds them. -/
def lastOf (c : Dev nD) : S100000x64.Idx → EReal :=
  layer false (V c main_v32) (V c main_v22) (V c main_v33) (V c main_v34)
    (fun p => V c main_v35 (ix2 p (0 : Fin 1))) (fun q => V c main_v36 (ix2 (0 : Fin 1) q))

/-- Row r of block t of the message sums is row t·10000 + r of the array. -/
theorem read1_0 (c : Dev nD) (t : Fin cfg1.N) (y : S10000x64.Idx) (i : S100000x64.Idx)
    (h0 : (i 0).val = t.val * 10000 + (y 0).val) (k : Fin 64) :
    iblk1 V c 0 t (ix2 (y 0) k) = V c main_v32 (ix2 (i 0) k) := by
  show V c main_v32 (((cfg1.win 0).blk t).view.emb (ix2 (y 0) k)) = V c main_v32 (ix2 (i 0) k)
  refine congrArg (V c main_v32) (funext fun a => Fin.ext ?_)
  obtain ⟨e0, e1, -⟩ := idx1 t
  match a with
  | ⟨0, _⟩ => show win1_0.index t (0 : Fin 2) * 10000 + 1 * (y 0).val = (i 0).val; omega
  | ⟨1, _⟩ => show win1_0.index t (1 : Fin 2) * 64 + 1 * k.val = k.val; omega

/-- The same for the in-degree column. -/
theorem read1_1 (c : Dev nD) (t : Fin cfg1.N) (y : S10000x64.Idx) (i : S100000x64.Idx)
    (h0 : (i 0).val = t.val * 10000 + (y 0).val) :
    iblk1 V c 1 t (ix2 (y 0) (0 : Fin 1)) = V c main_v35 (ix2 (i 0) (0 : Fin 1)) := by
  show V c main_v35 (((cfg1.win 1).blk t).view.emb (ix2 (y 0) (0 : Fin 1))) = V c main_v35 (ix2 (i 0) (0 : Fin 1))
  refine congrArg (V c main_v35) (funext fun a => Fin.ext ?_)
  obtain ⟨-, -, e0, e1, -⟩ := idx1 t
  match a with
  | ⟨0, _⟩ => show win1_1.index t (0 : Fin 2) * 10000 + 1 * (y 0).val = (i 0).val; omega
  | ⟨1, _⟩ => show win1_1.index t (1 : Fin 2) * 1 + 1 * 0 = 0; omega

/-- The same for the node features. -/
theorem read1_2 (c : Dev nD) (t : Fin cfg1.N) (y : S10000x64.Idx) (i : S100000x64.Idx)
    (h0 : (i 0).val = t.val * 10000 + (y 0).val) (k : Fin 64) :
    iblk1 V c 2 t (ix2 (y 0) k) = V c main_v22 (ix2 (i 0) k) := by
  show V c main_v22 (((cfg1.win 2).blk t).view.emb (ix2 (y 0) k)) = V c main_v22 (ix2 (i 0) k)
  refine congrArg (V c main_v22) (funext fun a => Fin.ext ?_)
  obtain ⟨-, -, -, -, e0, e1, -⟩ := idx1 t
  match a with
  | ⟨0, _⟩ => show win1_2.index t (0 : Fin 2) * 10000 + 1 * (y 0).val = (i 0).val; omega
  | ⟨1, _⟩ => show win1_2.index t (1 : Fin 2) * 64 + 1 * k.val = k.val; omega

/-- A weight matrix is its one block. -/
theorem read1_3 (c : Dev nD) (t : Fin cfg1.N) (y : S10000x64.Idx) (i : S100000x64.Idx)
    (h1 : (i 1).val = (y 1).val) (k : Fin 64) :
    iblk1 V c 3 t (ix2 k (y 1)) = V c main_v33 (ix2 k (i 1)) := by
  show V c main_v33 (((cfg1.win 3).blk t).view.emb (ix2 k (y 1))) = V c main_v33 (ix2 k (i 1))
  refine congrArg (V c main_v33) (funext fun a => Fin.ext ?_)
  obtain ⟨-, -, -, -, -, -, e0, e1, -⟩ := idx1 t
  match a with
  | ⟨0, _⟩ => show win1_3.index t (0 : Fin 2) * 64 + 1 * k.val = k.val; omega
  | ⟨1, _⟩ => show win1_3.index t (1 : Fin 2) * 64 + 1 * (y 1).val = (i 1).val; omega

/-- The bias row is its one block. -/
theorem read1_4 (c : Dev nD) (t : Fin cfg1.N) (y : S10000x64.Idx) (i : S100000x64.Idx)
    (h1 : (i 1).val = (y 1).val) :
    iblk1 V c 4 t (ix2 (0 : Fin 1) (y 1)) = V c main_v36 (ix2 (0 : Fin 1) (i 1)) := by
  show V c main_v36 (((cfg1.win 4).blk t).view.emb (ix2 (0 : Fin 1) (y 1))) = V c main_v36 (ix2 (0 : Fin 1) (i 1))
  refine congrArg (V c main_v36) (funext fun a => Fin.ext ?_)
  obtain ⟨-, -, -, -, -, -, -, -, e0, e1, -⟩ := idx1 t
  match a with
  | ⟨0, _⟩ => show win1_4.index t (0 : Fin 2) * 1 + 1 * 0 = 0; omega
  | ⟨1, _⟩ => show win1_4.index t (1 : Fin 2) * 64 + 1 * (y 1).val = (i 1).val; omega

/-- The other weight matrix is its one block. -/
theorem read1_5 (c : Dev nD) (t : Fin cfg1.N) (y : S10000x64.Idx) (i : S100000x64.Idx)
    (h1 : (i 1).val = (y 1).val) (k : Fin 64) :
    iblk1 V c 5 t (ix2 k (y 1)) = V c main_v34 (ix2 k (i 1)) := by
  show V c main_v34 (((cfg1.win 5).blk t).view.emb (ix2 k (y 1))) = V c main_v34 (ix2 k (i 1))
  refine congrArg (V c main_v34) (funext fun a => Fin.ext ?_)
  obtain ⟨-, -, -, -, -, -, -, -, -, -, e0, e1, -⟩ := idx1 t
  match a with
  | ⟨0, _⟩ => show win1_5.index t (0 : Fin 2) * 64 + 1 * k.val = k.val; omega
  | ⟨1, _⟩ => show win1_5.index t (1 : Fin 2) * 64 + 1 * (y 1).val = (i 1).val; omega

/-- The layer's entry for row (y 0) and feature (y 1) of the blocks at point t is the layer on the whole arrays at the
    array index i that this block entry lands on. -/
theorem entry1 (c : Dev nD) (t : Fin cfg1.N) (y : S10000x64.Idx) (i : S100000x64.Idx)
    (h0 : (i 0).val = t.val * 10000 + (y 0).val) (h1 : (i 1).val = (y 1).val) :
    act false (entry (fun k => iblk1 V c 0 t (ix2 (y 0) k)) (fun k => iblk1 V c 2 t (ix2 (y 0) k))
        (fun k => iblk1 V c 3 t (ix2 k (y 1))) (fun k => iblk1 V c 5 t (ix2 k (y 1)))
        (iblk1 V c 1 t (ix2 (y 0) (0 : Fin 1))) (iblk1 V c 4 t (ix2 (0 : Fin 1) (y 1))))
      = lastOf V c i := by
  have e0 : (fun k => iblk1 V c 0 t (ix2 (y 0) k)) = fun k => V c main_v32 (ix2 (i 0) k) := funext (read1_0 V c t y i h0)
  have e2 : (fun k => iblk1 V c 2 t (ix2 (y 0) k)) = fun k => V c main_v22 (ix2 (i 0) k) := funext (read1_2 V c t y i h0)
  have e3 : (fun k => iblk1 V c 3 t (ix2 k (y 1))) = fun k => V c main_v33 (ix2 k (i 1)) := funext (read1_3 V c t y i h1)
  have e5 : (fun k => iblk1 V c 5 t (ix2 k (y 1))) = fun k => V c main_v34 (ix2 k (i 1)) := funext (read1_5 V c t y i h1)
  rw [e0, e2, e3, e5, read1_1 V c t y i h0, read1_4 V c t y i h1]
  rfl

/-- What point t writes back is block t of the layer on the whole arrays. -/
theorem flushed1 (c : Dev nD) (t : Fin cfg1.N) :
    (dat1 V c).flushed 6 t = ((cfg1.win 6).blk t).view.read (Elt Ideal) (lastOf V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S10000x1) hz, View.ld_unit_zero (S := S64x64) hz, View.ld_unit_zero (S := S1x64) hz]
  funext j
  obtain ⟨-, -, -, -, -, -, -, -, -, -, -, -, e0, e1⟩ := idx1 t
  refine (Payload.last_at (iblk1 V c 1 t) (iblk1 V c 0 t) (iblk1 V c 2 t) (iblk1 V c 3 t) (iblk1 V c 5 t) (iblk1 V c 4 t)
    ((cfg1.win 6).xinj (grid1.coords t) j)).trans ?_
  refine entry1 V c t ((cfg1.win 6).xinj (grid1.coords t) j) (((cfg1.win 6).blk t).view.emb j) ?_ ?_
  · show win1_6.index t (0 : Fin 2) * 10000 + 1 * (j 0).val = t.val * 10000 + (j 0).val
    omega
  · show win1_6.index t (1 : Fin 2) * 64 + 1 * (j 1).val = (j 1).val
    omega

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v37).slice (win1_6.rect t)).set ↔ _
  rw [View.set_slice_whole, Rect.mem_set_unit]
  exact Iff.rfl

/-- Every node's row is in the block of the point its row number divided by 10000 names. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 10 := N_1
  refine ⟨⟨(i 0).val / 10000, by omega⟩, flush1_6 _, ?_⟩
  rw [mem_blk1]
  obtain ⟨-, -, -, -, -, -, -, -, -, -, -, -, e0, e1⟩ := idx1 ⟨(i 0).val / 10000, by omega⟩
  intro a
  match a with
  | ⟨0, _⟩ =>
    show win1_6.index ⟨(i 0).val / 10000, _⟩ (0 : Fin 2) * 10000 ≤ (i 0).val ∧ (i 0).val < win1_6.index ⟨(i 0).val / 10000, _⟩ (0 : Fin 2) * 10000 + 10000
    rw [e0]; show (i 0).val / 10000 * 10000 ≤ (i 0).val ∧ (i 0).val < (i 0).val / 10000 * 10000 + 10000
    omega
  | ⟨1, _⟩ =>
    show win1_6.index ⟨(i 0).val / 10000, _⟩ (1 : Fin 2) * 64 ≤ (i 1).val ∧ (i 1).val < win1_6.index ⟨(i 0).val / 10000, _⟩ (1 : Fin 2) * 64 + 64
    rw [e1]; omega

/-- After launch 1 its output array holds the layer on the arrays the launch found. -/
theorem final1 (c : Dev nD) : (dat1 V c).arrAt 6 cfg1.N = lastOf V c :=
  (dat1 V c).arrAt_eq_of_cover 6 (lastOf V c) (fun t _ => flushed1 V c t) (cover1)

end Cert.KernelIdeal.KRegion

end
-- ==== Proof.KRun.lean ====
/-
  The idealized kernel program's run, with its result named.

  The program is four stretches in a row: host operations, the first launch (one body per block of 10000 nodes), host
  operations again, the second launch.  The generated frame follows the TensorCore's buffer contents through the four
  stretches as a fold from the launch memory — after the last stretch every buffer that is not scoped holds the fold's
  value `W4` — and reads off it that the eight arguments end as launched.  Here the same run is read once more at the
  result buffer: it ends at the fold's value there.
-/
import proofs.«136123_j89936615178305_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's last
    value and the eight arguments as launched. -/
theorem run_fold : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.KValue.lean ====
/-
  The idealized kernel program's result is the network of the specification.

  The buffer contents are followed through the program's four stretches.  The first stretch of host operations leaves
  the two ends of every edge, the in-degree (a scatter-add of ones at the destinations), the message sums of the input
  features (a gather of the source rows scattered onto the destinations), the two transposed weight matrices, the
  in-degree kept as a column and the bias kept as a row.  The first launch leaves the hidden layer of those.  The
  second stretch repeats the aggregation on the hidden features and prepares the second layer's weights, column and
  row; the second launch leaves the last layer.  Reading a vector kept as a column at (p, 0), or kept as a row at
  (0, q), gives the vector's entry, so the result is the network on the arguments, with the aggregation, the in-degree
  and the transposes left as the host operations they are.
-/
import proofs.«136123_j89936615178305_1_alg».proof.Proof.KRegion
import proofs.«136123_j89936615178305_1_alg».proof.Proof.LibKeepdims
import proofs.«136123_j89936615178305_1_alg».proof.Proof.KRun
import Idealize.ShloMosaic.Lib.StableHlo.Run
import Idealize.ShloMosaic.Lib.ValueLayout

set_option maxRecDepth 16384

noncomputable section

open scoped BigOperators

namespace Cert.KernelIdeal.KValue

open Cert.KernelIdeal Cert.KernelIdeal.Gen Cert.KernelIdeal.KRegion Idealize.ShloMosaic Idealize.ShloMosaic.TcCoe Idealize.ShloMosaic.ValueIdx Cert.Sage

/-- The source node of every edge: row 0 of the edge list. -/
def srcOf (e : IVec S2x1000000 32) : IVec S1000000 32 :=
  shapeCast _ (extractStridedSlice S1x1000000 ![0, 0] e slices_S2x1000000_S1x1000000_0_0) shapeCasts_S1x1000000_S1000000

/-- The destination node of every edge: row 1 of the edge list. -/
def dstOf (e : IVec S2x1000000 32) : IVec S1000000 32 :=
  shapeCast _ (extractStridedSlice S1x1000000 ![1, 0] e slices_S2x1000000_S1x1000000_1_0) shapeCasts_S1x1000000_S1000000

/-- For every node the sum of the rows of `y` at the sources of its incoming edges: a gather of the source rows (a
    negative index wrapped by adding the node count) and a scatter-add of them onto the zero array at the destinations. -/
def aggWith (src dst : IVec S1000000 32) (y : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (Host.gather gather_S100000x64_S1000000x1_S1000000x64_1_0_n_n_0_1_164 y
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 100000#32))) src)))

/-- Every node's in-degree: a scatter-add of ones onto the zero vector at the destinations. -/
def degWith (dst : IVec S1000000 32) : FVec Ideal S100000 .f32 :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0 dst)
    (broadcastInDim S1000000 ![] bcast_S_S1000000 (constant (F := Ideal) S_ .f32 0x3F800000#32))

/-- A weight matrix transposed. -/
def trOf (w : FVec Ideal S64x64 .f32) : FVec Ideal S64x64 .f32 :=
  transpose S64x64 [1, 0] w transposes_S64x64_S64x64_1_0

variable (m : (ℓ : Loc nD τ sig) → Buf (Elt Ideal) ℓ) (ρ : Dev nD → PrngReg)

/-! ## After the first stretch of host operations -/

theorem W1_v1 (c : Dev nD) : W1 m ρ c (Proc.devRef .tc main_v1) = srcOf (m ((c.tc : Thread nD τ).loc main_arg1)) := by
  show StableHlo.after hostOps0 (W0 m ρ c) (Proc.devRef .tc main_v1) = _
  dsimp only [hostOps0]
  after_results
  rfl

theorem W1_v3 (c : Dev nD) : W1 m ρ c (Proc.devRef .tc main_v3) = dstOf (m ((c.tc : Thread nD τ).loc main_arg1)) := by
  show StableHlo.after hostOps0 (W0 m ρ c) (Proc.devRef .tc main_v3) = _
  dsimp only [hostOps0]
  after_results
  rfl

theorem W1_v7 (c : Dev nD) : W1 m ρ c (Proc.devRef .tc main_v7) = degWith (dstOf (m ((c.tc : Thread nD τ).loc main_arg1))) := by
  show StableHlo.after hostOps0 (W0 m ρ c) (Proc.devRef .tc main_v7) = _
  dsimp only [hostOps0]
  after_results
  rfl

set_option maxHeartbeats 2000000 in
theorem W1_v17 (c : Dev nD) : W1 m ρ c (Proc.devRef .tc main_v17) = aggWith (srcOf (m ((c.tc : Thread nD τ).loc main_arg1))) (dstOf (m ((c.tc : Thread nD τ).loc main_arg1))) (m ((c.tc : Thread nD τ).loc main_arg0)) := by
  show StableHlo.after hostOps0 (W0 m ρ c) (Proc.devRef .tc main_v17) = _
  dsimp only [hostOps0]
  after_results_simp
  rfl

theorem W1_v18 (c : Dev nD) : W1 m ρ c (Proc.devRef .tc main_v18) = trOf (m ((c.tc : Thread nD τ).loc main_arg2)) := by
  show StableHlo.after hostOps0 (W0 m ρ c) (Proc.devRef .tc main_v18) = _
  dsimp only [hostOps0]
  after_results
  rfl

theorem W1_v19 (c : Dev nD) : W1 m ρ c (Proc.devRef .tc main_v19) = trOf (m ((c.tc : Thread nD τ).loc main_arg4)) := by
  show StableHlo.after hostOps0 (W0 m ρ c) (Proc.devRef .tc main_v19) = _
  dsimp only [hostOps0]
  after_results
  rfl

theorem W1_v20 (c : Dev nD) : W1 m ρ c (Proc.devRef .tc main_v20) = shapeCast S100000x1 (degWith (dstOf (m ((c.tc : Thread nD τ).loc main_arg1)))) shapeCasts_S100000_S100000x1 := by
  show StableHlo.after hostOps0 (W0 m ρ c) (Proc.devRef .tc main_v20) = _
  dsimp only [hostOps0]
  after_results
  rfl

theorem W1_v21 (c : Dev nD) : W1 m ρ c (Proc.devRef .tc main_v21) = shapeCast S1x64 (m ((c.tc : Thread nD τ).loc main_arg3)) shapeCasts_S64_S1x64 := by
  show StableHlo.after hostOps0 (W0 m ρ c) (Proc.devRef .tc main_v21) = _
  dsimp only [hostOps0]
  after_results
  rfl

theorem W1_arg0 (c : Dev nD) : W1 m ρ c (Proc.devRef .tc main_arg0) = m ((c.tc : Thread nD τ).loc main_arg0) := by
  show StableHlo.after hostOps0 (W0 m ρ c) (Proc.devRef .tc main_arg0) = _
  dsimp only [hostOps0]
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  dsimp only [hostOps0]
  after_results

theorem W1_arg6 (c : Dev nD) : W1 m ρ c (Proc.devRef .tc main_arg6) = m ((c.tc : Thread nD τ).loc main_arg6) := by
  show StableHlo.after hostOps0 (W0 m ρ c) (Proc.devRef .tc main_arg6) = _
  dsimp only [hostOps0]
  after_results

theorem W1_arg7 (c : Dev nD) : W1 m ρ c (Proc.devRef .tc main_arg7) = m ((c.tc : Thread nD τ).loc main_arg7) := by
  show StableHlo.after hostOps0 (W0 m ρ c) (Proc.devRef .tc main_arg7) = _
  dsimp only [hostOps0]
  after_results

/-! ## After the first launch -/

/-- The hidden features: the hidden layer on the input features. -/
theorem hidden_eq (c : Dev nD) :
    hiddenOf (V1 m ρ) c
      = layer true (aggWith (srcOf (m ((c.tc : Thread nD τ).loc main_arg1))) (dstOf (m ((c.tc : Thread nD τ).loc main_arg1))) (m ((c.tc : Thread nD τ).loc main_arg0))) (m ((c.tc : Thread nD τ).loc main_arg0)) (trOf (m ((c.tc : Thread nD τ).loc main_arg2))) (trOf (m ((c.tc : Thread nD τ).loc main_arg4)))
          (fun p => degWith (dstOf (m ((c.tc : Thread nD τ).loc main_arg1))) (ix1 p)) (fun q => m ((c.tc : Thread nD τ).loc main_arg3) (ix1 q)) := by
  show layer true (W1 m ρ c (Proc.devRef .tc main_v17)) (W1 m ρ c (Proc.devRef .tc main_arg0)) (W1 m ρ c (Proc.devRef .tc main_v18))
      (W1 m ρ c (Proc.devRef .tc main_v19)) (fun p => W1 m ρ c (Proc.devRef .tc main_v20) (ix2 p (0 : Fin 1)))
      (fun q => W1 m ρ c (Proc.devRef .tc main_v21) (ix2 (0 : Fin 1) q)) = _
  rw [W1_v17, W1_arg0, W1_v18, W1_v19, W1_v20, W1_v21]
  simp only [Cert.Keepdims.column_cast_apply, shapeCast_a_1a_apply]

theorem W2_v22 (c : Dev nD) : W2 m ρ c (Proc.devRef .tc main_v22) = hiddenOf (V1 m ρ) c :=
  (W2_arr m ρ c 6).trans (final0 (V1 m ρ) c)
theorem W2_v1 (c : Dev nD) : W2 m ρ c (Proc.devRef .tc main_v1) = srcOf (m ((c.tc : Thread nD τ).loc main_arg1)) :=
  (W2_of_ne m ρ c main_v1 (by decide)).trans (W1_v1 m ρ c)
theorem W2_v3 (c : Dev nD) : W2 m ρ c (Proc.devRef .tc main_v3) = dstOf (m ((c.tc : Thread nD τ).loc main_arg1)) :=
  (W2_of_ne m ρ c main_v3 (by decide)).trans (W1_v3 m ρ c)
theorem W2_v7 (c : Dev nD) : W2 m ρ c (Proc.devRef .tc main_v7) = degWith (dstOf (m ((c.tc : Thread nD τ).loc main_arg1))) :=
  (W2_of_ne m ρ c main_v7 (by decide)).trans (W1_v7 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

/-! ## After the second stretch of host operations -/

set_option maxHeartbeats 2000000 in
theorem W3_v32 (c : Dev nD) : W3 m ρ c (Proc.devRef .tc main_v32) = aggWith (W2 m ρ c (Proc.devRef .tc main_v1)) (W2 m ρ c (Proc.devRef .tc main_v3)) (W2 m ρ c (Proc.devRef .tc main_v22)) := by
  show StableHlo.after hostOps1 (W2 m ρ c) (Proc.devRef .tc main_v32) = _
  dsimp only [hostOps1]
  after_results_simp
  rfl

theorem W3_v22 (c : Dev nD) : W3 m ρ c (Proc.devRef .tc main_v22) = W2 m ρ c (Proc.devRef .tc main_v22) := by
  show StableHlo.after hostOps1 (W2 m ρ c) (Proc.devRef .tc main_v22) = _
  dsimp only [hostOps1]
  after_results

theorem W3_v33 (c : Dev nD) : W3 m ρ c (Proc.devRef .tc main_v33) = trOf (W2 m ρ c (Proc.devRef .tc main_arg5)) := by
  show StableHlo.after hostOps1 (W2 m ρ c) (Proc.devRef .tc main_v33) = _
  dsimp only [hostOps1]
  after_results
  rfl

theorem W3_v34 (c : Dev nD) : W3 m ρ c (Proc.devRef .tc main_v34) = trOf (W2 m ρ c (Proc.devRef .tc main_arg7)) := by
  show StableHlo.after hostOps1 (W2 m ρ c) (Proc.devRef .tc main_v34) = _
  dsimp only [hostOps1]
  after_results
  rfl

theorem W3_v35 (c : Dev nD) : W3 m ρ c (Proc.devRef .tc main_v35) = shapeCast S100000x1 (W2 m ρ c (Proc.devRef .tc main_v7)) shapeCasts_S100000_S100000x1 := by
  show StableHlo.after hostOps1 (W2 m ρ c) (Proc.devRef .tc main_v35) = _
  dsimp only [hostOps1]
  after_results
  rfl

theorem W3_v36 (c : Dev nD) : W3 m ρ c (Proc.devRef .tc main_v36) = shapeCast S1x64 (W2 m ρ c (Proc.devRef .tc main_arg6)) shapeCasts_S64_S1x64 := by
  show StableHlo.after hostOps1 (W2 m ρ c) (Proc.devRef .tc main_v36) = _
  dsimp only [hostOps1]
  after_results
  rfl

/-! ## After the second launch -/

/-- The result buffer at the end of the fold is the network on the arguments. -/
theorem value (c : Dev nD) :
    W4 m ρ c (Proc.devRef .tc main_v37)
      = network (aggWith (srcOf (m ((c.tc : Thread nD τ).loc main_arg1))) (dstOf (m ((c.tc : Thread nD τ).loc main_arg1)))) (fun p => degWith (dstOf (m ((c.tc : Thread nD τ).loc main_arg1))) (ix1 p)) (m ((c.tc : Thread nD τ).loc main_arg0))
        (trOf (m ((c.tc : Thread nD τ).loc main_arg2))) (trOf (m ((c.tc : Thread nD τ).loc main_arg4))) (fun q => m ((c.tc : Thread nD τ).loc main_arg3) (ix1 q))
        (trOf (m ((c.tc : Thread nD τ).loc main_arg5))) (trOf (m ((c.tc : Thread nD τ).loc main_arg7))) (fun q => m ((c.tc : Thread nD τ).loc main_arg6) (ix1 q)) := by
  refine ((W4_arr m ρ c 6).trans (final1 (V3 m ρ) c)).trans ?_
  show layer false (W3 m ρ c (Proc.devRef .tc main_v32)) (W3 m ρ c (Proc.devRef .tc main_v22)) (W3 m ρ c (Proc.devRef .tc main_v33))
      (W3 m ρ c (Proc.devRef .tc main_v34)) (fun p => W3 m ρ c (Proc.devRef .tc main_v35) (ix2 p (0 : Fin 1)))
      (fun q => W3 m ρ c (Proc.devRef .tc main_v36) (ix2 (0 : Fin 1) q)) = _
  rw [W3_v32, W3_v22, W3_v33, W3_v34, W3_v35, W3_v36, W2_v22, W2_v1, W2_v3, W2_v7, W2_arg5, W2_arg6, W2_arg7, hidden_eq]
  simp only [Cert.Keepdims.column_cast_apply, shapeCast_a_1a_apply]
  rfl

/-- Every weakly fair execution of the idealized kernel program terminates, nothing faulting, with its result at the
    network on the arguments and the arguments as launched. -/
theorem run : θ_run defs (onTc (τ := τ) (main (F := Ideal))) ⟨m, fun _ => 0, ρ⟩ (fun r => ∀ c : Dev nD,
      r.2.mem ((c.tc : Thread nD τ).loc main_v37)
        = network (aggWith (srcOf (m ((c.tc : Thread nD τ).loc main_arg1))) (dstOf (m ((c.tc : Thread nD τ).loc main_arg1)))) (fun p => degWith (dstOf (m ((c.tc : Thread nD τ).loc main_arg1))) (ix1 p)) (m ((c.tc : Thread nD τ).loc main_arg0))
        (trOf (m ((c.tc : Thread nD τ).loc main_arg2))) (trOf (m ((c.tc : Thread nD τ).loc main_arg4))) (fun q => m ((c.tc : Thread nD τ).loc main_arg3) (ix1 q))
        (trOf (m ((c.tc : Thread nD τ).loc main_arg5))) (trOf (m ((c.tc : Thread nD τ).loc main_arg7))) (fun q => m ((c.tc : Thread nD τ).loc main_arg6) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (Cert.KernelIdeal.KRun.run_fold m ρ)

end Cert.KernelIdeal.KValue

end
-- ==== Proof.LibHostForms.lean ====
/-
  Host-side readings at an entry (p, q), on the extended reals and for variable extents.

  A bias kept as a row: the host's broadcast of a vector [b] to a row [1, b] along axis 1 reads at (0, q) the entry q,
  and its broadcast of a row [1, b] to [a, b] reads at (p, q) the row's entry (0, q).  And the host's ordinary matrix
  product — an [a, n] array times an [n, b] array, contracting the second axis of the left with the first of the right,
  no batch axis — is at (p, q) the sum over k of left (p, k) · right (k, q).
-/
import Idealize.ShloMosaic.Lib.Pipeline.Value
import Idealize.ShloMosaic.Lib.ValueIdx
import Idealize.ShloMosaic.PureOps.Ideal.Laws
import proofs.«136123_j89936615178305_1_alg».proof.Proof.LibPlainMatmul

noncomputable section

open scoped BigOperators

namespace Cert.HostForms

open Idealize.ShloMosaic Idealize.ShloMosaic.ValueIdx

variable {α : Type}

/-- The host's broadcast of a vector [b] to a row [1, b] along axis 1 reads, at (z, q), its entry `q`. -/
theorem host_row_apply {b : ℕ} (v : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h v (ix2 z q) = v (ix1 q) := by
  refine broadcastInDim_apply _ h v (ix2 z q) (ix1 q) fun ax => ?_
  match ax with
  | ⟨0, _⟩ =>
    show q.val = if b = 1 then 0 else q.val
    split
    · have := q.isLt; omega
    · rfl

/-- The host's broadcast of a row [1, b] to [a, b] reads, at (p, q), the row's entry of column `q`. -/
theorem host_row_repeat_apply {a b : ℕ} (u : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h u (ix2 p q) = u (ix2 (0 : Fin 1) q) := by
  refine broadcastInDim_apply _ h u (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- The host's ordinary product: at (p, q) the sum over k of left (p, k) · right (k, q). -/
theorem host_product_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    Host.dotGeneral (F := Ideal) (Cert.PlainMatmul.dims wf) prec L R (ix2 p q)
      = ∑ k : Fin n, L (ix2 p k) * R (ix2 k q) := by
  simp only [Host.dotGeneral]
  rw [Ideal.dotGeneral_apply, ← Equiv.sum_comp (contrEquiv1 (Cert.PlainMatmul.dims wf) n rfl rfl).symm]
  refine Finset.sum_congr rfl fun k _ => ?_
  have hk := contrEquiv1_symm_val (Cert.PlainMatmul.dims wf) n rfl rfl k
  have el : (Cert.PlainMatmul.dims wf).lhsIdx (ix2 p q) ((contrEquiv1 (Cert.PlainMatmul.dims wf) n rfl rfl).symm k) = ix2 p k :=
    funext fun ax => Fin.ext (by
      match ax with
      | ⟨0, _⟩ => rfl
      | ⟨1, _⟩ => exact ((Cert.PlainMatmul.dims wf).lhsIdx_val_of_single rfl _ _).trans hk)
  have er : (Cert.PlainMatmul.dims wf).rhsIdx (ix2 p q) ((contrEquiv1 (Cert.PlainMatmul.dims wf) n rfl rfl).symm k) = ix2 k q :=
    funext fun ax => Fin.ext (by
      match ax with
      | ⟨0, _⟩ => exact ((Cert.PlainMatmul.dims wf).rhsIdx_val_of_single rfl _ _).trans hk
      | ⟨1, _⟩ => rfl)
  rw [el, er]

end Cert.HostForms

end
-- ==== Proof.RefValue.lean ====
/-
  The reference program's result is the network of the specification.

  The reference spells one layer with host operations: the in-degrees are clipped at 1 from below, kept as a column and
  repeated along the 64 features; the message sums are divided by that; two ordinary products contract the feature axis;
  the bias is kept as a row and repeated along the nodes; the three terms are added in the order product, bias, product;
  the hidden layer then takes the maximum with the zero array.  Entry by entry this is the layer of the specification.
  What feeds the layers — the two ends of every edge, the gather of the source rows and their scatter-add onto the
  destination rows, the in-degree as a scatter-add of ones, the transposed weights — is named here and never opened.
-/
import proofs.«136123_j89936615178305_1_alg».proof.Proof.Gen.ReferenceIdeal.Run
import proofs.«136123_j89936615178305_1_alg».proof.Proof.Spec
import proofs.«136123_j89936615178305_1_alg».proof.Proof.LibHostForms
import proofs.«136123_j89936615178305_1_alg».proof.Proof.LibKeepdims
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.Value Idealize.ShloMosaic Idealize.ShloMosaic.TcCoe Idealize.ShloMosaic.ValueIdx Cert.Sage

/-- The source node of every edge: row 0 of the edge list. -/
def srcOf (e : IVec S2x1000000 32) : IVec S1000000 32 :=
  shapeCast _ (extractStridedSlice S1x1000000 ![0, 0] e slices_S2x1000000_S1x1000000_0_0) shapeCasts_S1x1000000_S1000000

/-- The destination node of every edge: row 1 of the edge list. -/
def dstOf (e : IVec S2x1000000 32) : IVec S1000000 32 :=
  shapeCast _ (extractStridedSlice S1x1000000 ![1, 0] e slices_S2x1000000_S1x1000000_1_0) shapeCasts_S1x1000000_S1000000

/-- For every node the sum of the rows of `y` at the sources of its incoming edges: a gather of the source rows (a
    negative index wrapped by adding the node count) and a scatter-add of them onto the zero array at the destinations. -/
def aggOf (e : IVec S2x1000000 32) (y : FVec Ideal S100000x64 .f32) :
    FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (dstOf e))
    (Host.gather gather_S100000x64_S1000000x1_S1000000x64_1_0_n_n_0_1_164 y
      (broadcastInDim S1000000x1 ![0] bcast_S1000000_S1000000x1_0
        (select (cmpi .slt (srcOf e) (broadcastInDim S1000000 ![] bcast_S_S1000000 (constantI S_ 32 0#32)))
          (addi (srcOf e) (broadcastInDim S1000000 ![] bcast_S_S1000000 (constantI S_ 32 100000#32))) (srcOf e))))

/-- Every node's in-degree: a scatter-add of ones onto the zero vector at the destinations. -/
def degOf (e : IVec S2x1000000 32) : FVec Ideal S100000 .f32 :=
  Host.scatterAdd (F := Ideal) scatter_S100000_S1000000x1_S1000000_n_0_0_1
    (broadcastInDim S100000 ![] bcast_S_S100000 (constant (F := Ideal) S_ .f32 0x00000000#32))
    (broadcastInDim S1000000x1 ![0] bcast_S1000000_S1000000x1_0 (dstOf e))
    (broadcastInDim S1000000 ![] bcast_S_S1000000 (constant (F := Ideal) S_ .f32 0x3F800000#32))

/-- A weight matrix transposed. -/
def trOf (w : FVec Ideal S64x64 .f32) : FVec Ideal S64x64 .f32 :=
  transpose S64x64 [1, 0] w transposes_S64x64_S64x64_1_0

/-- One layer before the activation, as the reference's host operations spell it. -/
def hostLayer (msg : FVec Ideal S100000x64 .f32) (deg : FVec Ideal S100000 .f32)
    (x : FVec Ideal S100000x64 .f32) (wl wr : FVec Ideal S64x64 .f32)
    (b : FVec Ideal S64 .f32) : FVec Ideal S100000x64 .f32 :=
  addf (addf (Host.dotGeneral (F := Ideal) dot_S100000x64_S64x64_S100000x64_1_0_0_1_n_n none
        (Host.divf (F := Ideal) msg (broadcastInDim S100000x64 ![0, 1] bcast_S100000x1_S100000x64_0_1
          (broadcastInDim S100000x1 ![0] bcast_S100000_S100000x1_0
            (maximumf deg (broadcastInDim S100000 ![] bcast_S_S100000 (constant (F := Ideal) S_ .f32 0x3F800000#32)))))) wl)
      (broadcastInDim S100000x64 ![0, 1] bcast_S1x64_S100000x64_0_1 (broadcastInDim S1x64 ![1] bcast_S64_S1x64_1 b)))
    (Host.dotGeneral (F := Ideal) dot_S100000x64_S64x64_S100000x64_1_0_0_1_n_n none x wr)

/-- The hidden layer's activation, as the reference spells it: the maximum with the zero array. -/
def hostClip (y : FVec Ideal S100000x64 .f32) : FVec Ideal S100000x64 .f32 :=
  maximumf y (broadcastInDim S100000x64 ![] bcast_S_S100000x64 (constant (F := Ideal) S_ .f32 0x00000000#32))

/-- A scalar broadcast to any shape reads the scalar everywhere. -/
theorem scalar_apply {α : Type} {s : Shape} (h : S_.BroadcastsInDim s (![] : Fin 0 → Fin s.rank)) (v : S_.Idx → α) (j : s.Idx) :
    broadcastInDim s ![] h v j = v ix0 :=
  broadcastInDim_apply _ h v j ix0 (fun a => a.elim0)

/-- The reference's ordinary product at (p, q): the sum over the 64 features. -/
theorem product_apply (L : FVec Ideal S100000x64 .f32) (R : FVec Ideal S64x64 .f32)
    (p : Fin 100000) (q : Fin 64) :
    Host.dotGeneral (F := Ideal) dot_S100000x64_S64x64_S100000x64_1_0_0_1_n_n none L R (ix2 p q)
      = ∑ k : Fin 64, L (ix2 p k) * R (ix2 k q) :=
  Cert.HostForms.host_product_apply dot_S100000x64_S64x64_S100000x64_1_0_0_1_n_n_wf none L R p q

/-- The clipped in-degree, kept as a column and repeated along the features, divides the message sums: at (p, k). -/
theorem mean_apply (msg : FVec Ideal S100000x64 .f32) (deg : FVec Ideal S100000 .f32)
    (p : Fin 100000) (k : Fin 64) :
    Host.divf (F := Ideal) msg (broadcastInDim S100000x64 ![0, 1] bcast_S100000x1_S100000x64_0_1
          (broadcastInDim S100000x1 ![0] bcast_S100000_S100000x1_0
            (maximumf deg (broadcastInDim S100000 ![] bcast_S_S100000 (constant (F := Ideal) S_ .f32 0x3F800000#32))))) (ix2 p k)
      = Ideal.div (msg (ix2 p k)) (max (deg (ix1 p)) one) := by
  show Ideal.div (msg (ix2 p k)) _ = _
  rw [Cert.Keepdims.host_column_repeat_apply, Cert.Keepdims.host_column_apply, maximumf_apply, scalar_apply]
  rfl

/-- One host layer before the activation is the specification's last-layer form. -/
theorem hostLayer_eq (msg : FVec Ideal S100000x64 .f32) (deg : FVec Ideal S100000 .f32)
    (x : FVec Ideal S100000x64 .f32) (wl wr : FVec Ideal S64x64 .f32)
    (b : FVec Ideal S64 .f32) :
    hostLayer msg deg x wl wr b = layer false msg x wl wr (fun p => deg (ix1 p)) (fun q => b (ix1 q)) := by
  funext i
  obtain ⟨p, q, rfl⟩ : ∃ (p : Fin 100000) (q : Fin 64), i = ix2 p q := ⟨i 0, i 1, eq_ix2 i⟩
  rw [layer_apply]
  unfold hostLayer layerAt entry
  rw [act_last, addf_apply, addf_apply, product_apply, product_apply, Cert.HostForms.host_row_repeat_apply,
    Cert.HostForms.host_row_apply]
  congr 1
  congr 1
  exact Finset.sum_congr rfl fun k _ => congrArg (· * wl (ix2 k q)) (mean_apply msg deg p k)

/-- The clipped host layer is the specification's hidden-layer form. -/
theorem hostClip_hostLayer_eq (msg : FVec Ideal S100000x64 .f32) (deg : FVec Ideal S100000 .f32)
    (x : FVec Ideal S100000x64 .f32) (wl wr : FVec Ideal S64x64 .f32)
    (b : FVec Ideal S64 .f32) :
    hostClip (hostLayer msg deg x wl wr b) = layer true msg x wl wr (fun p => deg (ix1 p)) (fun q => b (ix1 q)) := by
  funext i
  obtain ⟨p, q, rfl⟩ : ∃ (p : Fin 100000) (q : Fin 64), i = ix2 p q := ⟨i 0, i 1, eq_ix2 i⟩
  unfold hostClip
  rw [maximumf_apply, hostLayer_eq, layer_apply, layer_apply, scalar_apply]
  unfold layerAt
  rw [act_hidden, act_last]
  rfl

/-- The reference's result, with its shared pieces named: two host layers over the same aggregation and in-degree. -/
theorem res_shape (m : (ℓ : Loc nD τ sig) → Buf (Elt Ideal) ℓ) (c : Dev nD) :
    res_main_v58 (F := Ideal) m c
      = hostLayer
          (aggOf (m ((c.tc : Thread nD τ).loc main_arg1))
            (hostClip (hostLayer (aggOf (m ((c.tc : Thread nD τ).loc main_arg1)) (m ((c.tc : Thread nD τ).loc main_arg0)))
              (degOf (m ((c.tc : Thread nD τ).loc main_arg1))) (m ((c.tc : Thread nD τ).loc main_arg0))
              (trOf (m ((c.tc : Thread nD τ).loc main_arg2))) (trOf (m ((c.tc : Thread nD τ).loc main_arg4)))
              (m ((c.tc : Thread nD τ).loc main_arg3)))))
          (degOf (m ((c.tc : Thread nD τ).loc main_arg1)))
          (hostClip (hostLayer (aggOf (m ((c.tc : Thread nD τ).loc main_arg1)) (m ((c.tc : Thread nD τ).loc main_arg0)))
              (degOf (m ((c.tc : Thread nD τ).loc main_arg1))) (m ((c.tc : Thread nD τ).loc main_arg0))
              (trOf (m ((c.tc : Thread nD τ).loc main_arg2))) (trOf (m ((c.tc : Thread nD τ).loc main_arg4)))
              (m ((c.tc : Thread nD τ).loc main_arg3))))
          (trOf (m ((c.tc : Thread nD τ).loc main_arg5))) (trOf (m ((c.tc : Thread nD τ).loc main_arg7)))
          (m ((c.tc : Thread nD τ).loc main_arg6)) := by
  unfold res_main_v58 hostLayer hostClip aggOf degOf trOf srcOf dstOf
  rfl

/-- The reference's result is the network of the specification on its arguments. -/
theorem res_eq (m : (ℓ : Loc nD τ sig) → Buf (Elt Ideal) ℓ) (c : Dev nD) :
    res_main_v58 (F := Ideal) m c
      = network (aggOf (m ((c.tc : Thread nD τ).loc main_arg1)))
          (fun p => degOf (m ((c.tc : Thread nD τ).loc main_arg1)) (ix1 p))
          (m ((c.tc : Thread nD τ).loc main_arg0))
          (trOf (m ((c.tc : Thread nD τ).loc main_arg2))) (trOf (m ((c.tc : Thread nD τ).loc main_arg4)))
          (fun q => m ((c.tc : Thread nD τ).loc main_arg3) (ix1 q))
          (trOf (m ((c.tc : Thread nD τ).loc main_arg5))) (trOf (m ((c.tc : Thread nD τ).loc main_arg7)))
          (fun q => m ((c.tc : Thread nD τ).loc main_arg6) (ix1 q)) := by
  rw [res_shape, hostClip_hostLayer_eq, hostLayer_eq]
  rfl

end Cert.ReferenceIdeal.RefValue

end
-- ==== Proof.lean ====
/-
  A two-layer graph network that averages each node's incoming messages: the kernel program against its reference, on
  the extended reals.

  Both programs compute, for 100000 nodes with 64 features, 1000000 edges and two layers with weights wl, wr and bias b,

      h   = max( (A x / max(deg, 1)) · wlᵀ + b + x · wrᵀ , 0 )            (first layer)
      out =      (A h / max(deg, 1)) · wlᵀ + b + h · wrᵀ                  (second layer)

  where A y sums, for every node, the rows of y at the sources of its incoming edges (a gather of the source rows
  scattered-and-added onto the destination rows) and deg counts those edges (ones scattered-and-added).  The kernel
  program computes A and deg with host operations and each layer's dense part in one launch over ten blocks of 10000
  nodes; the reference computes everything with host operations.  The two spell the dense part differently — the kernel
  keeps the in-degree as a column and clips it inside the body, rounds the operands of its two products to a shorter
  format (the identity on the extended reals) and accumulates each product onto a zero array; the reference clips the
  in-degree as a vector and broadcasts it twice — but entry by entry both are the same expression, with the three terms
  added in the same order.  So the two results are equal term for term: no law of the extended reals beyond reading a
  product as a sum is used, and the precondition (finite inputs) is never opened.  A, deg and the transposes are the
  same host operations on the same arguments in both programs and are compared as such, never opened.

  The three frames: the kernel program's two are generated; the reference has no launch, and its frame is its run with
  the result dropped.  The idealization rewrote nothing, so it is preserved trivially.
-/
import proofs.«136123_j89936615178305_1_alg».proof.Defs
import proofs.«136123_j89936615178305_1_alg».proof.Proof.Gen.Kernel
import proofs.«136123_j89936615178305_1_alg».proof.Proof.Gen.Kernel.Frame
import proofs.«136123_j89936615178305_1_alg».proof.Proof.Gen.KernelIdeal
import proofs.«136123_j89936615178305_1_alg».proof.Proof.Gen.KernelIdeal.Frame
import proofs.«136123_j89936615178305_1_alg».proof.Proof.Gen.ReferenceIdeal
import proofs.«136123_j89936615178305_1_alg».proof.Proof.Gen.Pre_finite_inputs
import proofs.«136123_j89936615178305_1_alg».proof.Proof.Gen.ReferenceIdeal.Run
import proofs.«136123_j89936615178305_1_alg».proof.Proof.KValue
import proofs.«136123_j89936615178305_1_alg».proof.Proof.RefValue

noncomputable section

namespace Cert.Proof

open Idealize.ShloMosaic Idealize.ShloMosaic.TcCoe Idealize.SL.Sem Cert.Sage

/-! ## The host pieces the two programs share -/

/-- The reference's aggregation is the kernel program's: the same slices of the edge list, the same gather, the same
    scatter-add. -/
theorem agg_eq (e : IVec Cert.KernelIdeal.S2x1000000 32) :
    Cert.ReferenceIdeal.RefValue.aggOf e
      = Cert.KernelIdeal.KValue.aggWith (Cert.KernelIdeal.KValue.srcOf e) (Cert.KernelIdeal.KValue.dstOf e) := rfl

/-- The reference's in-degree is the kernel program's. -/
theorem deg_eq (e : IVec Cert.KernelIdeal.S2x1000000 32) :
    Cert.ReferenceIdeal.RefValue.degOf e = Cert.KernelIdeal.KValue.degWith (Cert.KernelIdeal.KValue.dstOf e) := rfl

/-- The reference's transpose of a weight matrix is the kernel program's. -/
theorem tr_eq (w : FVec Ideal Cert.KernelIdeal.S64x64 .f32) :
    Cert.ReferenceIdeal.RefValue.trOf w = Cert.KernelIdeal.KValue.trOf w := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the network on those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.res_eq, a0, a1, a2, a3, a4, a5, a6, a7, agg_eq, deg_eq, tr_eq, tr_eq, tr_eq, tr_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
